-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_eps" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S64x512 : Shape := ⟨2, ![64, 512]⟩
abbrev S65536x3 : Shape := ⟨2, ![65536, 3]⟩
abbrev S64 : Shape := ⟨1, ![64]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S65536x3 : S_.BroadcastsInDim S65536x3 (![] : Fin 0 → Fin S65536x3.rank)
  reducesTo_S65536x3_S_d0_1 : S65536x3.ReducesTo [0, 1] S_

variable [Facts]

def fn {F : FTy → Type} [FloatOps F] (main_arg0 : FVec F S65536x512 .f32) (main_arg1 : FVec F S64x512 .f32) (main_arg2 : FVec F S65536x3 .f32) (main_arg3 : IVec S64 32) (main_arg4 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S65536x3 .f32 := Host.absf main_arg2
  let main_cst_2 : FVec F S_ .f32 := constant S_ .f32 0x7F800000#32
  let main_v10 : FVec F S65536x3 .f32 := broadcastInDim S65536x3 ![] bcast_S_S65536x3 main_cst_2
  let main_v11 : IVec S65536x3 1 := cmpf .olt main_v9 main_v10
  let main_c_3 : IVec S_ 1 := constantI S_ 1 1#1
  let main_v12 : IVec S_ 1 := (fun x v => Host.reduce IntOp.andi x v reducesTo_S65536x3_S_d0_1 h_S_) main_v11 main_c_3
  let main_v13 : IVec S_ 1 := andi main_v8 main_v12
  main_v13
-- ==== Kernel.lean ====
abbrev S65536x512 : Shape := ⟨2, ![65536, 512]⟩
abbrev S64x512 : Shape := ⟨2, ![64, 512]⟩
abbrev S65536x3 : Shape := ⟨2, ![65536, 3]⟩
abbrev S64 : Shape := ⟨1, ![64]⟩
abbrev S65536 : Shape := ⟨1, ![65536]⟩
abbrev S64x1024x512 : Shape := ⟨3, ![64, 1024, 512]⟩
abbrev S1x1024x512 : Shape := ⟨3, ![1, 1024, 512]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S1x1024 : Shape := ⟨2, ![1, 1024]⟩

abbrev nBuf : Space → Nat
  | .hbm => 8
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S64x512, .f32⟩
  | .hbm, ⟨2, _⟩ => ⟨S65536x3, .f32⟩
  | .hbm, ⟨3, _⟩ => ⟨S64, .i32⟩
  | .hbm, ⟨4, _⟩ => ⟨S65536, .i32⟩
  | .hbm, ⟨5, _⟩ => ⟨S64x1024x512, .f32⟩
  | .hbm, ⟨6, _⟩ => ⟨S64x1024x512, .f32⟩
  | .hbm, ⟨7, _⟩ => ⟨S65536x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1024x1024, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S65536x512_S64x1024x512 : S65536x512.ShapeCasts S64x1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  broadcasts_S1024x1_S1024x1024 : S1024x1.Broadcasts S1024x1024
  reduces_S1024x1024_S1024_2 : S1024x1024.Reduces [0] S1024
  shapeCasts_S1024_S1x1024 : S1024.ShapeCasts S1x1024
  broadcasts_S1x1024_S1024x1024 : S1x1024.Broadcasts S1024x1024
  shapeCasts_S1024x512_S1x1024x512 : S1024x512.ShapeCasts S1x1024x512
  shapeCasts_S64x1024x512_S65536x512 : S64x1024x512.ShapeCasts S65536x512
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S64x1024x512.size a
  hwx0_0 : ∀ i : grid0.Coords, EltTy.bits .f32 = 32 ∨ (Rect.block (s := S64x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S64x1024x512.size a
  hwx0_1 : ∀ i : grid0.Coords, EltTy.bits .f32 = 32 ∨ (Rect.block (s := S64x1024x512) S1x1024x512.size (cc0_transform_1 i) (hinb0_1 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x512 : Shape := ⟨2, ![65536, 512]⟩
abbrev S64x512 : Shape := ⟨2, ![64, 512]⟩
abbrev S65536x3 : Shape := ⟨2, ![65536, 3]⟩
abbrev S64 : Shape := ⟨1, ![64]⟩
abbrev S65536 : Shape := ⟨1, ![65536]⟩
abbrev S64x1024x512 : Shape := ⟨3, ![64, 1024, 512]⟩
abbrev S_ : Shape := ⟨0, ![]⟩
abbrev S64x1024 : Shape := ⟨2, ![64, 1024]⟩
abbrev S64x1024x1 : Shape := ⟨3, ![64, 1024, 1]⟩
abbrev S64x1024x1024 : Shape := ⟨3, ![64, 1024, 1024]⟩
abbrev S64x1x1024 : Shape := ⟨3, ![64, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S64x512, .f32⟩
  | .hbm, ⟨2, _⟩ => ⟨S65536x3, .f32⟩
  | .hbm, ⟨3, _⟩ => ⟨S64, .i32⟩
  | .hbm, ⟨4, _⟩ => ⟨S65536, .i32⟩
  | .hbm, ⟨5, _⟩ => ⟨S64x1024x512, .f32⟩
  | .hbm, ⟨6, _⟩ => ⟨S64x1024x512, .f32⟩
  | .hbm, ⟨7, _⟩ => ⟨S_, .f32⟩
  | .hbm, ⟨8, _⟩ => ⟨S64x1024, .f32⟩
  | .hbm, ⟨9, _⟩ => ⟨S64x1024x1, .f32⟩
  | .hbm, ⟨10, _⟩ => ⟨S64x1024x1, .f32⟩
  | .hbm, ⟨11, _⟩ => ⟨S_, .f32⟩
  | .hbm, ⟨12, _⟩ => ⟨S64x1024x1, .f32⟩
  | .hbm, ⟨13, _⟩ => ⟨S64x1024x1, .f32⟩
  | .hbm, ⟨14, _⟩ => ⟨S64x1024x512, .f32⟩
  | .hbm, ⟨15, _⟩ => ⟨S64x1024x512, .f32⟩
  | .hbm, ⟨16, _⟩ => ⟨S64x1024x1024, .f32⟩
  | .hbm, ⟨17, _⟩ => ⟨S_, .f32⟩
  | .hbm, ⟨18, _⟩ => ⟨S64x1024x1024, .f32⟩
  | .hbm, ⟨19, _⟩ => ⟨S64x1024x1024, .f32⟩
  | .hbm, ⟨20, _⟩ => ⟨S64x1024x1024, .f32⟩
  | .hbm, ⟨21, _⟩ => ⟨S_, .f32⟩
  | .hbm, ⟨22, _⟩ => ⟨S64x1024x1024, .f32⟩
  | .hbm, ⟨23, _⟩ => ⟨S64x1024x1024, .f32⟩
  | .hbm, ⟨24, _⟩ => ⟨S64x1024x1024, .f32⟩
  | .hbm, ⟨25, _⟩ => ⟨S_, .f32⟩
  | .hbm, ⟨26, _⟩ => ⟨S64x1024, .f32⟩
  | .hbm, ⟨27, _⟩ => ⟨S64x1024x1, .f32⟩
  | .hbm, ⟨28, _⟩ => ⟨S64x1024x1024, .f32⟩
  | .hbm, ⟨29, _⟩ => ⟨S64x1024x1024, .f32⟩
  | .hbm, ⟨30, _⟩ => ⟨S_, .f32⟩
  | .hbm, ⟨31, _⟩ => ⟨S64x1024, .f32⟩
  | .hbm, ⟨32, _⟩ => ⟨S64x1x1024, .f32⟩
  | .hbm, ⟨33, _⟩ => ⟨S64x1024x1024, .f32⟩
  | .hbm, ⟨34, _⟩ => ⟨S64x1024x1024, .f32⟩
  | .hbm, ⟨35, _⟩ => ⟨S_, .f32⟩
  | .hbm, ⟨36, _⟩ => ⟨S64x1024, .f32⟩
  | .hbm, ⟨37, _⟩ => ⟨S64x1024x1, .f32⟩
  | .hbm, ⟨38, _⟩ => ⟨S64x1024x1024, .f32⟩
  | .hbm, ⟨39, _⟩ => ⟨S64x1024x1024, .f32⟩
  | .hbm, ⟨40, _⟩ => ⟨S_, .f32⟩
  | .hbm, ⟨41, _⟩ => ⟨S64x1024, .f32⟩
  | .hbm, ⟨42, _⟩ => ⟨S64x1x1024, .f32⟩
  | .hbm, ⟨43, _⟩ => ⟨S64x1024x1024, .f32⟩
  | .hbm, ⟨44, _⟩ => ⟨S64x1024x1024, .f32⟩
  | .hbm, ⟨45, _⟩ => ⟨S_, .f32⟩
  | .hbm, ⟨46, _⟩ => ⟨S64x1024, .f32⟩
  | .hbm, ⟨47, _⟩ => ⟨S64x1024x1, .f32⟩
  | .hbm, ⟨48, _⟩ => ⟨S64x1024x1024, .f32⟩
  | .hbm, ⟨49, _⟩ => ⟨S64x1024x1024, .f32⟩
  | .hbm, ⟨50, _⟩ => ⟨S_, .f32⟩
  | .hbm, ⟨51, _⟩ => ⟨S64x1024, .f32⟩
  | .hbm, ⟨52, _⟩ => ⟨S64x1x1024, .f32⟩
  | .hbm, ⟨53, _⟩ => ⟨S64x1024x1024, .f32⟩
  | .hbm, ⟨54, _⟩ => ⟨S64x1024x1024, .f32⟩
  | .hbm, ⟨55, _⟩ => ⟨S_, .f32⟩
  | .hbm, ⟨56, _⟩ => ⟨S64x1024, .f32⟩
  | .hbm, ⟨57, _⟩ => ⟨S64x1024x1, .f32⟩
  | .hbm, ⟨58, _⟩ => ⟨S64x1024x1024, .f32⟩
  | .hbm, ⟨59, _⟩ => ⟨S64x1024x1024, .f32⟩
  | .hbm, ⟨60, _⟩ => ⟨S64x1024x512, .f32⟩
  | .hbm, ⟨61, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  shapeCasts_S65536x512_S64x1024x512 : S65536x512.ShapeCasts S64x1024x512
  reducesTo_S64x1024x512_S64x1024_d2 : S64x1024x512.ReducesTo [2] S64x1024
  h_S_ : 0 < S_.numel
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x512_0_1_2 : S64x1024x1.BroadcastsInDim S64x1024x512 (![0, 1, 2] : Fin 3 → Fin S64x1024x512.rank)
  bcast_S_S64x1024x1024 : S_.BroadcastsInDim S64x1024x1024 (![] : Fin 0 → Fin S64x1024x1024.rank)
  reducesTo_S64x1024x1024_S64x1024_d2 : S64x1024x1024.ReducesTo [2] S64x1024
  bcast_S64x1024x1_S64x1024x1024_0_1_2 : S64x1024x1.BroadcastsInDim S64x1024x1024 (![0, 1, 2] : Fin 3 → Fin S64x1024x1024.rank)
  reducesTo_S64x1024x1024_S64x1024_d1 : S64x1024x1024.ReducesTo [1] S64x1024
  bcast_S64x1024_S64x1x1024_0_2 : S64x1024.BroadcastsInDim S64x1x1024 (![0, 2] : Fin 2 → Fin S64x1x1024.rank)
  bcast_S64x1x1024_S64x1024x1024_0_1_2 : S64x1x1024.BroadcastsInDim S64x1024x1024 (![0, 1, 2] : Fin 3 → Fin S64x1024x1024.rank)
  shapeCasts_S64x1024x512_S65536x512 : S64x1024x512.ShapeCasts S65536x512
  dot_S64x1024x512_S64x1024x512_S64x1024x1024_2_2_1_1_0_0_wf : DotDims.WF S64x1024x512 S64x1024x512 S64x1024x1024 [2] [2] [1] [1] [0] [0]
  dot_S64x1024x1024_S64x1024x512_S64x1024x512_2_1_1_2_0_0_wf : DotDims.WF S64x1024x1024 S64x1024x512 S64x1024x512 [2] [1] [1] [2] [0] [0]

variable [Facts₀]

def dot_S64x1024x512_S64x1024x512_S64x1024x1024_2_2_1_1_0_0 : DotDims S64x1024x512 S64x1024x512 S64x1024x1024 where
  lhsContracting := [2]
  rhsContracting := [2]
  lhsNonContracting := [1]
  rhsNonContracting := [1]
  lhsBatch := [0]
  rhsBatch := [0]
  wf := dot_S64x1024x512_S64x1024x512_S64x1024x1024_2_2_1_1_0_0_wf
def dot_S64x1024x1024_S64x1024x512_S64x1024x512_2_1_1_2_0_0 : DotDims S64x1024x1024 S64x1024x512 S64x1024x512 where
  lhsContracting := [2]
  rhsContracting := [1]
  lhsNonContracting := [1]
  rhsNonContracting := [2]
  lhsBatch := [0]
  rhsBatch := [0]
  wf := dot_S64x1024x1024_S64x1024x512_S64x1024x512_2_1_1_2_0_0_wf

class Facts : Prop extends Facts₀ where

variable [Facts]
-- ==== Proof.Spec.lean ====
/-
  The function both programs compute, stated index by index on the extended reals.

  For one group `x` of `n` feature rows of length `d`:
    * `rowLen x r`      the Euclidean length of row `r`, bounded below by the word of `1e-12`;
    * `unitRows x`      every row divided by its length;
    * `cosSim x r c`    the inner product of unit rows `r` and `c`;
    * `kernel0 x r c`   `exp ((cosSim x r c - 1) / T)` with the temperature `T` the f32 word of `0.05`,
                        written as a product with `1 / T`;
    * `transport x`     three rounds of (divide each row by its sum, then each column by its sum);
    * `attend x`        the transport plan with rows divided by their sums once more, times `x`.
  The whole array is 64 independent groups (`groups`).

  The only algebra needed between the two programs is at the temperature: one multiplies
  `cosSim - 1` by the reciprocal of `T`, the other divides `-(1 - cosSim)` by `T` (`temp_law`);
  both hold on every extended real because `1` and `T` are finite and `T ≠ 0`.
-/
import Idealize.ShloMosaic.PureOps.Ideal
import Idealize.ShloMosaic.PureOps.Ideal.Laws
import Idealize.ShloMosaic.Lib.ValueIdx

noncomputable section

namespace Cert.GroupAttn

open Idealize.ShloMosaic Idealize.ShloMosaic.ValueIdx

/-- The lower bound of a row's length: the f32 word of `1e-12`. -/
abbrev lenFloor : EReal := Ideal.ofBits .f32 0x2B8CBCCC#32

/-- The reciprocal of the temperature, the temperature being the f32 word of `0.05`, that is `13421773 / 2^28`. -/
abbrev invTemp : EReal := ((268435456 / 13421773 : ℝ) : EReal)

section
variable {n d : Nat}

/-- The sum of squares of row `r`. -/
def sqLen (x : Fin n → Fin d → EReal) (r : Fin n) : EReal := ∑ k : Fin d, x r k * x r k

/-- The length of row `r`, at least `lenFloor`. -/
def rowLen (x : Fin n → Fin d → EReal) (r : Fin n) : EReal := max (Ideal.sqrt (sqLen x r)) lenFloor

/-- Row `r` scaled to unit length. -/
def unitRows (x : Fin n → Fin d → EReal) (r : Fin n) (k : Fin d) : EReal := Ideal.div (x r k) (rowLen x r)

/-- The cosine similarity of rows `r` and `c`. -/
def cosSim (x : Fin n → Fin d → EReal) (r c : Fin n) : EReal := ∑ k : Fin d, unitRows x r k * unitRows x c k

/-- The Gibbs kernel of the cost `1 - cosSim` at temperature `T`. -/
def kernel0 (x : Fin n → Fin d → EReal) (r c : Fin n) : EReal := Ideal.exp ((cosSim x r c - 1) * invTemp)

/-- Every entry divided by the sum of its row. -/
def rowNormalize {m : Nat} (T : Fin n → Fin m → EReal) (r : Fin n) (c : Fin m) : EReal := Ideal.div (T r c) (∑ k : Fin m, T r k)

/-- Every entry divided by the sum of its column. -/
def colNormalize {m : Nat} (T : Fin n → Fin m → EReal) (r : Fin n) (c : Fin m) : EReal := Ideal.div (T r c) (∑ k : Fin n, T k c)

/-- Three rounds of row then column normalisation of the Gibbs kernel. -/
def transport (x : Fin n → Fin d → EReal) : Fin n → Fin n → EReal :=
  colNormalize (rowNormalize (colNormalize (rowNormalize (colNormalize (rowNormalize (kernel0 x))))))

/-- The row-stochastic plan applied to the rows of `x`. -/
def attend (x : Fin n → Fin d → EReal) (r : Fin n) (k : Fin d) : EReal := ∑ j : Fin n, rowNormalize (transport x) r j * x j k

end

/-- Group `g` of a [64, 1024, 512] array, as a matrix. -/
def group (X : (⟨3, ![64, 1024, 512]⟩ : Shape).Idx → EReal) (g : Fin 64) : Fin 1024 → Fin 512 → EReal := fun r k => X (ix3 g r k)

/-- The whole result: every group attended to separately. -/
def groups (X : (⟨3, ![64, 1024, 512]⟩ : Shape).Idx → EReal) : (⟨3, ![64, 1024, 512]⟩ : Shape).Idx → EReal :=
  fun i => attend (group X ⟨(i 0).val, (i 0).isLt⟩) ⟨(i 1).val, (i 1).isLt⟩ ⟨(i 2).val, (i 2).isLt⟩

theorem groups_ix3 (X : (⟨3, ![64, 1024, 512]⟩ : Shape).Idx → EReal) (g : Fin 64) (r : Fin 1024) (k : Fin 512) :
    groups X (ix3 g r k) = attend (group X g) r k := rfl

/-! ## The constants' words -/

/-- The word of `1.0` denotes `1`. -/
theorem ofBits_one : Ideal.ofBits .f32 0x3F800000#32 = 1 := by
  simp [Ideal.ofBits, Ideal.ieee, -EReal.coe_mul]; norm_num

/-- The word of `0.05` denotes `13421773 / 2^28`. -/
theorem ofBits_temp : Ideal.ofBits .f32 0x3D4CCCCD#32 = ((13421773 / 268435456 : ℝ) : EReal) := by
  simp [Ideal.ofBits, Ideal.ieee, -EReal.coe_mul]; norm_num

/-- `-(1 - g) = g - 1` on every extended real. -/
theorem neg_one_sub (g : EReal) : -((1 : EReal) - g) = g - 1 := by
  induction g using EReal.rec with
  | bot => rfl
  | top => rfl
  | coe r => norm_cast; ring

/-- Dividing `-(1 - g)` by the temperature is multiplying `g - 1` by its reciprocal. -/
theorem temp_law (g : EReal) :
    Ideal.div (-(Ideal.ofBits .f32 0x3F800000#32 - g)) (Ideal.ofBits .f32 0x3D4CCCCD#32) = (g - 1) * invTemp := by
  rw [ofBits_one, ofBits_temp, Ideal.div_coe (by norm_num), neg_one_sub]
  congr 2
  norm_num

end Cert.GroupAttn

end
-- ==== Proof.RefValue.lean ====
/-
  The reference read index by index on the extended reals: its batched operations, at batch
  entry `g`, are the stages of the specification on group `g` of the reshaped argument.
-/
import proofs.«154877_j57423712747928_1_alg».proof.Proof.Gen.ReferenceIdeal.Read
import proofs.«154877_j57423712747928_1_alg».proof.Proof.Spec
import Idealize.ShloMosaic.PureOps.Ideal.Laws
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.GroupAttn

/-- Batch entry `g` of a [64, 1024, 1024] array, as a matrix. -/
abbrev slab (A : FVec Ideal S64x1024x1024 .f32) (g : Fin 64) : Fin 1024 → Fin 1024 → EReal := fun r c => A (ix3 g r c)

/-! ## The two normalisations, for any operand -/

/-- Divide every entry by the sum over the last axis, kept and broadcast back. -/
def rowDiv (A : FVec Ideal S64x1024x1024 .f32) : FVec Ideal S64x1024x1024 .f32 :=
  Host.divf (F := Ideal) A (broadcastInDim S64x1024x1024 ![0, 1, 2] bcast_S64x1024x1_S64x1024x1024_0_1_2
    (broadcastInDim S64x1024x1 ![0, 1] bcast_S64x1024_S64x1024x1_0_1
      (Host.reduceAdd (F := Ideal) A (constant (F := Ideal) S_ .f32 0x00000000#32) reducesTo_S64x1024x1024_S64x1024_d2 h_S_)))

/-- Divide every entry by the sum over the middle axis, kept and broadcast back. -/
def colDiv (A : FVec Ideal S64x1024x1024 .f32) : FVec Ideal S64x1024x1024 .f32 :=
  Host.divf (F := Ideal) A (broadcastInDim S64x1024x1024 ![0, 1, 2] bcast_S64x1x1024_S64x1024x1024_0_1_2
    (broadcastInDim S64x1x1024 ![0, 2] bcast_S64x1024_S64x1x1024_0_2
      (Host.reduceAdd (F := Ideal) A (constant (F := Ideal) S_ .f32 0x00000000#32) reducesTo_S64x1024x1024_S64x1024_d1 h_S_)))

theorem rowDiv_slab (A : FVec Ideal S64x1024x1024 .f32) (g : Fin 64) : slab (rowDiv A) g = rowNormalize (slab A g) := by
  funext r c
  show Ideal.div (A (ix3 g r c)) _ = Ideal.div (A (ix3 g r c)) (∑ k : Fin 1024, A (ix3 g r k))
  refine congrArg (Ideal.div (A (ix3 g r c))) ?_
  refine (broadcastInDim_apply _ bcast_S64x1024x1_S64x1024x1024_0_1_2 _ (ix3 g r c) (ix3 g r (0 : Fin 1)) (fun a => match a with
    | ⟨0, _⟩ => by show g.val = if (64 : Nat) = 1 then 0 else g.val; rw [if_neg (by decide)]
    | ⟨1, _⟩ => by show r.val = if (1024 : Nat) = 1 then 0 else r.val; rw [if_neg (by decide)]
    | ⟨2, _⟩ => by show 0 = if (1 : Nat) = 1 then 0 else c.val; rw [if_pos rfl])).trans ?_
  refine (broadcastInDim_apply _ bcast_S64x1024_S64x1024x1_0_1 _ (ix3 g r (0 : Fin 1)) (ix2 g r) (fun a => match a with
    | ⟨0, _⟩ => by show g.val = if (64 : Nat) = 1 then 0 else g.val; rw [if_neg (by decide)]
    | ⟨1, _⟩ => by show r.val = if (1024 : Nat) = 1 then 0 else r.val; rw [if_neg (by decide)])).trans ?_
  simp only [Host.reduceAdd, Ideal.hostReduceAdd_def]
  rw [Ideal.hostReduceAdd_single reducesTo_S64x1024x1024_S64x1024_d2 (by decide)]
  show Ideal.ofBits .f32 0x00000000#32 + _ = _
  rw [Ideal.ofBits_zero_f32, zero_add]
  exact Finset.sum_congr rfl fun k _ => congrArg A (funext fun a => Fin.ext (by
    match a with | ⟨0, _⟩ => rfl | ⟨1, _⟩ => rfl | ⟨2, _⟩ => rfl))

theorem colDiv_slab (A : FVec Ideal S64x1024x1024 .f32) (g : Fin 64) : slab (colDiv A) g = colNormalize (slab A g) := by
  funext r c
  show Ideal.div (A (ix3 g r c)) _ = Ideal.div (A (ix3 g r c)) (∑ k : Fin 1024, A (ix3 g k c))
  refine congrArg (Ideal.div (A (ix3 g r c))) ?_
  refine (broadcastInDim_apply _ bcast_S64x1x1024_S64x1024x1024_0_1_2 _ (ix3 g r c) (ix3 g (0 : Fin 1) c) (fun a => match a with
    | ⟨0, _⟩ => by show g.val = if (64 : Nat) = 1 then 0 else g.val; rw [if_neg (by decide)]
    | ⟨1, _⟩ => by show 0 = if (1 : Nat) = 1 then 0 else r.val; rw [if_pos rfl]
    | ⟨2, _⟩ => by show c.val = if (1024 : Nat) = 1 then 0 else c.val; rw [if_neg (by decide)])).trans ?_
  refine (broadcastInDim_apply _ bcast_S64x1024_S64x1x1024_0_2 _ (ix3 g (0 : Fin 1) c) (ix2 g c) (fun a => match a with
    | ⟨0, _⟩ => by show g.val = if (64 : Nat) = 1 then 0 else g.val; rw [if_neg (by decide)]
    | ⟨1, _⟩ => by show c.val = if (1024 : Nat) = 1 then 0 else c.val; rw [if_neg (by decide)])).trans ?_
  simp only [Host.reduceAdd, Ideal.hostReduceAdd_def]
  rw [Ideal.hostReduceAdd_single reducesTo_S64x1024x1024_S64x1024_d1 (by decide)]
  show Ideal.ofBits .f32 0x00000000#32 + _ = _
  rw [Ideal.ofBits_zero_f32, zero_add]
  exact Finset.sum_congr rfl fun k _ => congrArg A (funext fun a => Fin.ext (by
    match a with | ⟨0, _⟩ => rfl | ⟨1, _⟩ => rfl | ⟨2, _⟩ => rfl))

/-! ## The stages of the reference -/

variable (x0 : (⟨S65536x512, .f32⟩ : BufTy).Contents (Elt Ideal))

/-- The rows of a group, each divided by its length. -/
theorem v5_apply (g : Fin 64) (r : Fin 1024) (k : Fin 512) :
    val_main_v5 (F := Ideal) x0 (ix3 g r k) = unitRows (group (val_main_v0 (F := Ideal) x0) g) r k := by
  rw [val_main_v5_apply, val_main_v4_apply, val_main_v3_apply, val_main_v2_apply, val_main_cst_apply, val_main_v1_apply,
    val_main_call0_v2_apply, val_main_call0_v1_apply, val_main_call0_cst_apply]
  refine congrArg (Ideal.div (val_main_v0 (F := Ideal) x0 (ix3 g r k))) ?_
  refine congrArg (fun s => max (Ideal.sqrt s) lenFloor) ?_
  show Ideal.ofBits .f32 0x00000000#32 + _ = _
  rw [Ideal.ofBits_zero_f32, zero_add]
  exact Finset.sum_congr rfl fun j _ => congrArg (fun i => val_main_v0 (F := Ideal) x0 i * val_main_v0 (F := Ideal) x0 i)
    (funext fun a => Fin.ext (by match a with | ⟨0, _⟩ => rfl | ⟨1, _⟩ => rfl | ⟨2, _⟩ => rfl))

/-- The cosine similarities within a group. -/
theorem v6_apply (g : Fin 64) (r c : Fin 1024) :
    val_main_v6 (F := Ideal) x0 (ix3 g r c) = cosSim (group (val_main_v0 (F := Ideal) x0) g) r c := by
  rw [val_main_v6_apply]
  refine Finset.sum_congr rfl fun k _ => ?_
  rw [show lidx_main_v6 (ix3 g r c) k = ix3 g r k from funext fun a => Fin.ext (by
      match a with | ⟨0, _⟩ => rfl | ⟨1, _⟩ => rfl | ⟨2, _⟩ => rfl),
    show ridx_main_v6 (ix3 g r c) k = ix3 g c k from funext fun a => Fin.ext (by
      match a with | ⟨0, _⟩ => rfl | ⟨1, _⟩ => rfl | ⟨2, _⟩ => rfl),
    v5_apply, v5_apply]

/-- The Gibbs kernel of a group: the reference divides `-(1 - cosSim)` by the temperature. -/
theorem v12_slab (g : Fin 64) : slab (val_main_v12 (F := Ideal) x0) g = kernel0 (group (val_main_v0 (F := Ideal) x0) g) := by
  funext r c
  show val_main_v12 (F := Ideal) x0 (ix3 g r c) = _
  rw [val_main_v12_apply, val_main_v11_apply, val_main_v10_apply, val_main_cst_1_apply, val_main_v9_apply, val_main_v8_apply,
    val_main_v7_apply, val_main_cst_0_apply, v6_apply]
  exact congrArg Ideal.exp (temp_law _)

/-- The seven normalisations are the two operations above, applied in turn. -/
theorem v16_eq : val_main_v16 (F := Ideal) x0 = rowDiv (val_main_v12 (F := Ideal) x0) := rfl
theorem v20_eq : val_main_v20 (F := Ideal) x0 = colDiv (val_main_v16 (F := Ideal) x0) := rfl
theorem v24_eq : val_main_v24 (F := Ideal) x0 = rowDiv (val_main_v20 (F := Ideal) x0) := rfl
theorem v28_eq : val_main_v28 (F := Ideal) x0 = colDiv (val_main_v24 (F := Ideal) x0) := rfl
theorem v32_eq : val_main_v32 (F := Ideal) x0 = rowDiv (val_main_v28 (F := Ideal) x0) := rfl
theorem v36_eq : val_main_v36 (F := Ideal) x0 = colDiv (val_main_v32 (F := Ideal) x0) := rfl
theorem v40_eq : val_main_v40 (F := Ideal) x0 = rowDiv (val_main_v36 (F := Ideal) x0) := rfl

/-- The row-stochastic plan of a group. -/
theorem v40_slab (g : Fin 64) :
    slab (val_main_v40 (F := Ideal) x0) g = rowNormalize (transport (group (val_main_v0 (F := Ideal) x0) g)) := by
  rw [v40_eq, rowDiv_slab, v36_eq, colDiv_slab, v32_eq, rowDiv_slab, v28_eq, colDiv_slab, v24_eq, rowDiv_slab, v20_eq,
    colDiv_slab, v16_eq, rowDiv_slab, v12_slab]
  rfl

/-- The batched product with the reshaped argument: every group attended to. -/
theorem v41_eq : val_main_v41 (F := Ideal) x0 = groups (val_main_v0 (F := Ideal) x0) := by
  funext i
  obtain ⟨g, r, k, rfl⟩ : ∃ (g : Fin 64) (r : Fin 1024) (k : Fin 512), i = ix3 g r k := ⟨i 0, i 1, i 2, eq_ix3 i⟩
  rw [groups_ix3, val_main_v41_apply]
  refine Finset.sum_congr rfl fun j _ => ?_
  rw [show lidx_main_v41 (ix3 g r k) j = ix3 g r j from funext fun a => Fin.ext (by
      match a with | ⟨0, _⟩ => rfl | ⟨1, _⟩ => rfl | ⟨2, _⟩ => rfl),
    show ridx_main_v41 (ix3 g r k) j = ix3 g j k from funext fun a => Fin.ext (by
      match a with | ⟨0, _⟩ => rfl | ⟨1, _⟩ => rfl | ⟨2, _⟩ => rfl)]
  exact congrArg (· * val_main_v0 (F := Ideal) x0 (ix3 g j k)) (congrFun (congrFun (v40_slab x0 g) r) j)

/-- The reference's result: the reshaped argument, every group attended to, reshaped back. -/
theorem result_eq : val_main_v42 (F := Ideal) x0
    = shapeCast S65536x512 (groups (shapeCast S64x1024x512 x0 shapeCasts_S65536x512_S64x1024x512)) shapeCasts_S64x1024x512_S65536x512 := by
  unfold val_main_v42
  rw [v41_eq]
  rfl

end Cert.ReferenceIdeal.RefValue

end
-- ==== Proof.KernelBody.lean ====
/-
  One grid point of the kernel, as a pure function of its input block.

  The body keeps its transport plan in a 1024 × 1024 scratch buffer: it stores the exponentiated
  cost, then seven times reads the whole buffer back, normalises it (rows, columns, rows, …) and
  stores it again, and finally multiplies the row-normalised plan into the block.  Every load of
  the scratch buffer is a load of the whole buffer right after a store of the whole buffer, so it
  reads exactly what was stored; the body's output block is therefore the composition of the
  stored values, `blockOut`.
-/
import proofs.«154877_j57423712747928_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F] [Named F]

theorem hz3 : (![0, 0, 0] : Fin 3 → Nat) = fun _ => 0 := funext fun a => by fin_cases a <;> rfl

/-- The scratch buffer after the first store: the exponentiated, scaled cosine similarities. -/
def plan0 (x0 : Vec F S1x1024x512 .f32) : FVec F S1024x1024 .f32 := k0_pay4 x0
/-- After the first row normalisation. -/
def plan1 (x0 : Vec F S1x1024x512 .f32) : FVec F S1024x1024 .f32 := k0_pay5 (plan0 x0) (plan0 x0)
/-- After the first column normalisation. -/
def plan2 (x0 : Vec F S1x1024x512 .f32) : FVec F S1024x1024 .f32 := k0_pay7 (k0_pay6 (plan1 x0) (plan1 x0))
/-- After the second row normalisation. -/
def plan3 (x0 : Vec F S1x1024x512 .f32) : FVec F S1024x1024 .f32 := k0_pay8 (plan2 x0) (plan2 x0)
/-- After the second column normalisation. -/
def plan4 (x0 : Vec F S1x1024x512 .f32) : FVec F S1024x1024 .f32 := k0_pay9 (plan3 x0) (plan3 x0)
/-- After the third row normalisation. -/
def plan5 (x0 : Vec F S1x1024x512 .f32) : FVec F S1024x1024 .f32 := k0_pay10 (plan4 x0) (plan4 x0)
/-- After the third column normalisation. -/
def plan6 (x0 : Vec F S1x1024x512 .f32) : FVec F S1024x1024 .f32 := k0_pay1 (plan5 x0) (plan5 x0)
/-- The output block: the plan, normalised by rows once more, times the input block. -/
def blockOut (x0 : Vec F S1x1024x512 .f32) : FVec F S1x1024x512 .f32 := k0_pay2 (k0_pay3 x0) (plan6 x0) (plan6 x0)

/-- What the body leaves in its output block is `blockOut` of its input block. -/
theorem out_eq (c : Dev nD) (i : grid0.Coords) (a1 : Memref sig .tc .vmem S1x1024x512 .f32) (h1 : a1.IsWhole)
    (a2 : Memref sig .tc .vmem S1x1024x512 .f32) (h2 : a2.IsWhole) (a3 : Memref sig .tc .vmem S1024x1024 .f32) (h3 : a3.IsWhole)
    (x0 : Vec F S1x1024x512 .f32) :
    out0_A_1 c i a1 h1 a2 h2 a3 h3 x0 = blockOut x0 := by
  unfold out0_A_1
  rw [View.read_writes_eq_canon _ _ _ (cover0_A_1 c i a1 h1 a2 h2 a3 h3 x0)]
  unfold kernelRun0_A
  dsimp only
  rw [View.canon_unit_zero hz3]
  sl_unfold_words
  simp only [View.readCov_cons_toLoadRect, View.readAt_eq_ld, h1.read_unread, View.ld_unit_zero (S := S1x1024x512) hz3]
  rfl

end Cert.KernelIdeal.Body

end
-- ==== Proof.Layout.lean ====
/-
  Column forms of the keep-dimension layout operations, read at an index: a vector of `a` entries
  viewed as an `a × 1` column, and an `a × 1` column repeated along `b` columns.
-/
import Idealize.ShloMosaic.Lib.Pipeline.Value
import Idealize.ShloMosaic.Lib.ValueIdx
import Idealize.ShloMosaic.Lib.ValueLayout

noncomputable section

namespace Cert.GroupAttn.Layout

open Idealize.ShloMosaic Idealize.ShloMosaic.ValueIdx

variable {α : Type}

/-- A length-`a` vector cast to an `a × 1` column reads, at row `i`, the vector's entry `i`. -/
theorem cast_col_apply {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    omega)

/-- An `a × 1` column broadcast to `a × b` reads, at `(i, j)`, the column's entry `i` (for `a ≠ 1`). -/
theorem bcast_col_apply {a b : ℕ} (ha : a ≠ 1) (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ => show i.val = if a = 1 then 0 else i.val; rw [if_neg ha]
  | ⟨1, _⟩ => show 0 = if (1 : ℕ) = 1 then 0 else j.val; rw [if_pos rfl]

end Cert.GroupAttn.Layout

end
-- ==== Proof.KernelValue.lean ====
/-
  The kernel body's arithmetic read index by index on the extended reals: each value the body
  stores, as a function of the input block, is the corresponding stage of the specification.
-/
import proofs.«154877_j57423712747928_1_alg».proof.Proof.KernelBody
import proofs.«154877_j57423712747928_1_alg».proof.Proof.Spec
import proofs.«154877_j57423712747928_1_alg».proof.Proof.Layout
import Idealize.ShloMosaic.PureOps.Ideal.Laws
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Value

open Cert.KernelIdeal Cert.KernelIdeal.Gen Cert.KernelIdeal.Body Cert.GroupAttn Cert.GroupAttn.Layout

/-- A square array as a matrix of its entries. -/
abbrev mat (A : FVec Ideal S1024x1024 .f32) : Fin 1024 → Fin 1024 → EReal := fun r c => A (ix2 r c)

/-- The sum along a row of a 1024 × 1024 array. -/
theorem rowSum_apply (B : FVec Ideal S1024x1024 .f32) (r : Fin 1024) :
    multiReduction (F := Ideal) .add [1] S1024 B 0x00000000#32 reduces_S1024x1024_S1024 (.inl rfl) rfl (ix1 r)
      = ∑ k : Fin 1024, B (ix2 r k) := by
  refine (Ideal.multiReduction_add_single B _ reduces_S1024x1024_S1024 _ _ (ix1 r)).trans ?_
  exact Finset.sum_congr rfl fun k _ => congrArg B (funext fun a => Fin.ext (by
    match a with | ⟨0, _⟩ => rfl | ⟨1, _⟩ => rfl))

/-- The sum along a column of a 1024 × 1024 array. -/
theorem colSum_apply (B : FVec Ideal S1024x1024 .f32) (c : Fin 1024) :
    multiReduction (F := Ideal) .add [0] S1024 B 0x00000000#32 reduces_S1024x1024_S1024_2 (.inl rfl) rfl (ix1 c)
      = ∑ k : Fin 1024, B (ix2 k c) := by
  refine (Ideal.multiReduction_add_single B _ reduces_S1024x1024_S1024_2 _ _ (ix1 c)).trans ?_
  exact Finset.sum_congr rfl fun k _ => congrArg B (funext fun a => Fin.ext (by
    match a with | ⟨0, _⟩ => rfl | ⟨1, _⟩ => rfl))

/-- Dividing by the row sums kept as a column: entry `(r, c)` of `A` over the sum of row `r` of `B`. -/
theorem rowDiv_apply (A B : FVec Ideal S1024x1024 .f32) (r c : Fin 1024) :
    divf A (broadcastTo S1024x1024 (shapeCast S1024x1
        (multiReduction (F := Ideal) .add [1] S1024 B 0x00000000#32 reduces_S1024x1024_S1024 (.inl rfl) rfl)
        shapeCasts_S1024_S1024x1) broadcasts_S1024x1_S1024x1024) (ix2 r c)
      = Ideal.div (A (ix2 r c)) (∑ k : Fin 1024, B (ix2 r k)) := by
  refine congrArg (Ideal.div (A (ix2 r c))) ?_
  refine (bcast_col_apply (by decide) _ _ r c).trans ?_
  refine (cast_col_apply _ _ r 0).trans ?_
  exact rowSum_apply B r

/-- Dividing by the column sums kept as a row: entry `(r, c)` of `A` over the sum of column `c` of `B`. -/
theorem colDiv_apply (A B : FVec Ideal S1024x1024 .f32) (r c : Fin 1024) :
    divf A (broadcastTo S1024x1024 (shapeCast S1x1024
        (multiReduction (F := Ideal) .add [0] S1024 B 0x00000000#32 reduces_S1024x1024_S1024_2 (.inl rfl) rfl)
        shapeCasts_S1024_S1x1024) broadcasts_S1x1024_S1024x1024) (ix2 r c)
      = Ideal.div (A (ix2 r c)) (∑ k : Fin 1024, B (ix2 k c)) := by
  refine congrArg (Ideal.div (A (ix2 r c))) ?_
  refine (broadcastTo_1b_ab_apply _ _ r c).trans ?_
  refine (shapeCast_a_1a_apply _ _ 0 c).trans ?_
  exact colSum_apply B c

/-! ## The normalised rows and their inner products -/

/-- The input block as a matrix: its leading axis has one entry. -/
abbrev blk (x0 : Vec Ideal S1x1024x512 .f32) : Fin 1024 → Fin 512 → EReal := fun r k => x0 (ix3 (0 : Fin 1) r k)

/-- Dropping the block's leading unit axis. -/
theorem pay3_apply (x0 : Vec Ideal S1x1024x512 .f32) (r : Fin 1024) (k : Fin 512) :
    k0_pay3 (F := Ideal) x0 (ix2 r k) = blk x0 r k :=
  shapeCast_1ab_ab_apply x0 _ r k

/-- A row divided by its length (the length at least the floor). -/
theorem unit_apply (v1 : FVec Ideal S1024x512 .f32) (r : Fin 1024) (k : Fin 512) :
    divf v1 (broadcastTo S1024x512 (maximumf (sqrt (shapeCast S1024x1
        (multiReduction (F := Ideal) .add [1] S1024 (mulf v1 v1) 0x00000000#32 reduces_S1024x512_S1024 (.inl rfl) rfl)
        shapeCasts_S1024_S1024x1)) (broadcast S1024x1 (Scalar.ofBits (F := Ideal) .f32 0x2B8CBCCC#32)))
        broadcasts_S1024x1_S1024x512) (ix2 r k)
      = unitRows (fun r k => v1 (ix2 r k)) r k := by
  refine congrArg (Ideal.div (v1 (ix2 r k))) ?_
  refine (bcast_col_apply (by decide) _ _ r k).trans ?_
  refine congrArg (fun s => max (Ideal.sqrt s) lenFloor) ?_
  refine (cast_col_apply _ _ r 0).trans ?_
  refine (Ideal.multiReduction_add_single (mulf v1 v1) _ reduces_S1024x512_S1024 _ _ (ix1 r)).trans ?_
  exact Finset.sum_congr rfl fun j _ => congrArg (fun i => v1 i * v1 i) (funext fun a => Fin.ext (by
    match a with | ⟨0, _⟩ => rfl | ⟨1, _⟩ => rfl))

/-- Which coordinates of the operands an entry of each matrix product reads. -/
theorem gram_lhs0 (j : S1024x1024.Idx) (q : dot_S1024x512_S1024x512_S1024x1024_1_1_0_0_n_n.contr.Idx) :
    (dot_S1024x512_S1024x512_S1024x1024_1_1_0_0_n_n.lhsIdx j q 0).val = (j 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

theorem gram_rhs0 (j : S1024x1024.Idx) (q : dot_S1024x512_S1024x512_S1024x1024_1_1_0_0_n_n.contr.Idx) :
    (dot_S1024x512_S1024x512_S1024x1024_1_1_0_0_n_n.rhsIdx j q 0).val = (j 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

theorem apply_lhs0 (j : S1024x512.Idx) (q : dot_S1024x1024_S1024x512_S1024x512_1_0_0_1_n_n.contr.Idx) :
    (dot_S1024x1024_S1024x512_S1024x512_1_0_0_1_n_n.lhsIdx j q 0).val = (j 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl

theorem apply_rhs1 (j : S1024x512.Idx) (q : dot_S1024x1024_S1024x512_S1024x512_1_0_0_1_n_n.contr.Idx) :
    (dot_S1024x1024_S1024x512_S1024x512_1_0_0_1_n_n.rhsIdx j q 1).val = (j 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- The product of a 1024 × 512 array with its own transpose, into a zero accumulator. -/
theorem gram_apply (u : FVec Ideal S1024x512 .bf16) (r c : Fin 1024) :
    matmul (F := Ideal) dot_S1024x512_S1024x512_S1024x1024_1_1_0_0_n_n none u u (constant (F := Ideal) S1024x1024 .f32 0x00000000#32) (ix2 r c)
      = ∑ k : Fin 512, u (ix2 r k) * u (ix2 c k) := by
  refine (Ideal.matmul_constant_zero_apply dot_S1024x512_S1024x512_S1024x1024_1_1_0_0_n_n none u u (ix2 r c)).trans ?_
  rw [← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 r c) ((ValueIdx.contrEquiv1 dot_S1024x512_S1024x512_S1024x1024_1_1_0_0_n_n 512 rfl rfl).symm k) = ix2 r k :=
    funext fun a => Fin.ext (by
      match a with
      | ⟨0, _⟩ => exact gram_lhs0 _ _
      | ⟨1, _⟩ => exact (dot_S1024x512_S1024x512_S1024x1024_1_1_0_0_n_n.lhsIdx_val_of_single rfl _ _).trans hk)
  have er : dot_S1024x512_S1024x512_S1024x1024_1_1_0_0_n_n.rhsIdx (ix2 r c) ((ValueIdx.contrEquiv1 dot_S1024x512_S1024x512_S1024x1024_1_1_0_0_n_n 512 rfl rfl).symm k) = ix2 c k :=
    funext fun a => Fin.ext (by
      match a with
      | ⟨0, _⟩ => exact gram_rhs0 _ _
      | ⟨1, _⟩ => exact (dot_S1024x512_S1024x512_S1024x1024_1_1_0_0_n_n.rhsIdx_val_of_single rfl _ _).trans hk)
  rw [el, er]

/-- The product of a 1024 × 1024 array with a 1024 × 512 one, into a zero accumulator. -/
theorem apply_apply (p : FVec Ideal S1024x1024 .bf16) (v : FVec Ideal S1024x512 .bf16) (r : Fin 1024) (k : Fin 512) :
    matmul (F := Ideal) dot_S1024x1024_S1024x512_S1024x512_1_0_0_1_n_n none p v (constant (F := Ideal) S1024x512 .f32 0x00000000#32) (ix2 r k)
      = ∑ j : Fin 1024, p (ix2 r j) * v (ix2 j k) := by
  refine (Ideal.matmul_constant_zero_apply dot_S1024x1024_S1024x512_S1024x512_1_0_0_1_n_n none p v (ix2 r k)).trans ?_
  rw [← Equiv.sum_comp (ValueIdx.contrEquiv1 dot_S1024x1024_S1024x512_S1024x512_1_0_0_1_n_n 1024 rfl rfl).symm]
  refine Finset.sum_congr rfl fun j _ => ?_
  have hj := ValueIdx.contrEquiv1_symm_val dot_S1024x1024_S1024x512_S1024x512_1_0_0_1_n_n 1024 rfl rfl j
  have el : dot_S1024x1024_S1024x512_S1024x512_1_0_0_1_n_n.lhsIdx (ix2 r k) ((ValueIdx.contrEquiv1 dot_S1024x1024_S1024x512_S1024x512_1_0_0_1_n_n 1024 rfl rfl).symm j) = ix2 r j :=
    funext fun a => Fin.ext (by
      match a with
      | ⟨0, _⟩ => exact apply_lhs0 _ _
      | ⟨1, _⟩ => exact (dot_S1024x1024_S1024x512_S1024x512_1_0_0_1_n_n.lhsIdx_val_of_single rfl _ _).trans hj)
  have er : dot_S1024x1024_S1024x512_S1024x512_1_0_0_1_n_n.rhsIdx (ix2 r k) ((ValueIdx.contrEquiv1 dot_S1024x1024_S1024x512_S1024x512_1_0_0_1_n_n 1024 rfl rfl).symm j) = ix2 j k :=
    funext fun a => Fin.ext (by
      match a with
      | ⟨0, _⟩ => exact (dot_S1024x1024_S1024x512_S1024x512_1_0_0_1_n_n.rhsIdx_val_of_single rfl _ _).trans hj
      | ⟨1, _⟩ => exact apply_rhs1 _ _)
  rw [el, er]

/-! ## The stored values, stage by stage -/

/-- The kernel's folded reciprocal of the temperature denotes `2^28 / 13421773`. -/
theorem inv_temp : Named.named (F := Ideal) Cert.KernelIdeal.κ "inv_eps" (φ := .f32) 0x41A00000#32 = invTemp :=
  IdealRules.named_const.ideal_named_scalar _ _ _ _ rfl

/-- The first stored plan is the Gibbs kernel of the block. -/
theorem plan0_mat (x0 : Vec Ideal S1x1024x512 .f32) : mat (plan0 x0) = kernel0 (blk x0) := by
  funext r c
  show k0_pay4 (F := Ideal) x0 (ix2 r c) = _
  unfold k0_pay4
  refine (congrFun (shapeCast_self _ _) (ix2 r c)).trans ?_
  have key : ∀ s : EReal, Ideal.exp ((s - Ideal.ofBits .f32 0x3F800000#32)
      * Named.named (F := Ideal) Cert.KernelIdeal.κ "inv_eps" (φ := .f32) 0x41A00000#32) = Ideal.exp ((s - 1) * invTemp) :=
    fun s => by rw [inv_temp, ofBits_one]
  refine (key _).trans ?_
  refine congrArg (fun s => Ideal.exp ((s - 1) * invTemp)) ?_
  refine (gram_apply _ r c).trans ?_
  have hb : (fun r k => k0_pay3 (F := Ideal) x0 (ix2 r k)) = blk x0 := funext fun r => funext fun k => pay3_apply x0 r k
  refine Finset.sum_congr rfl fun k _ => ?_
  exact congrArg₂ (· * ·) ((unit_apply (k0_pay3 x0) r k).trans (by rw [hb])) ((unit_apply (k0_pay3 x0) c k).trans (by rw [hb]))

/-- A stored row normalisation. -/
theorem pay5_mat (A : FVec Ideal S1024x1024 .f32) : mat (k0_pay5 (F := Ideal) A A) = rowNormalize (mat A) := by
  funext r c
  show k0_pay5 (F := Ideal) A A (ix2 r c) = _
  unfold k0_pay5
  exact (congrFun (shapeCast_self _ _) (ix2 r c)).trans (rowDiv_apply A A r c)

theorem pay8_mat (A : FVec Ideal S1024x1024 .f32) : mat (k0_pay8 (F := Ideal) A A) = rowNormalize (mat A) := by
  funext r c
  show k0_pay8 (F := Ideal) A A (ix2 r c) = _
  unfold k0_pay8
  exact (congrFun (shapeCast_self _ _) (ix2 r c)).trans (rowDiv_apply A A r c)

theorem pay10_mat (A : FVec Ideal S1024x1024 .f32) : mat (k0_pay10 (F := Ideal) A A) = rowNormalize (mat A) := by
  funext r c
  show k0_pay10 (F := Ideal) A A (ix2 r c) = _
  unfold k0_pay10
  exact (congrFun (shapeCast_self _ _) (ix2 r c)).trans (rowDiv_apply A A r c)

/-- A column normalisation (the first is kept in a register, then stored unchanged). -/
theorem pay6_mat (A : FVec Ideal S1024x1024 .f32) : mat (k0_pay6 (F := Ideal) A A) = colNormalize (mat A) := by
  funext r c
  show k0_pay6 (F := Ideal) A A (ix2 r c) = _
  unfold k0_pay6
  exact colDiv_apply A A r c

theorem pay7_eq (A : FVec Ideal S1024x1024 .f32) : k0_pay7 (F := Ideal) A = A := by
  unfold k0_pay7
  exact shapeCast_self _ _

theorem pay9_mat (A : FVec Ideal S1024x1024 .f32) : mat (k0_pay9 (F := Ideal) A A) = colNormalize (mat A) := by
  funext r c
  show k0_pay9 (F := Ideal) A A (ix2 r c) = _
  unfold k0_pay9
  exact (congrFun (shapeCast_self _ _) (ix2 r c)).trans (colDiv_apply A A r c)

theorem pay1_mat (A : FVec Ideal S1024x1024 .f32) : mat (k0_pay1 (F := Ideal) A A) = colNormalize (mat A) := by
  funext r c
  show k0_pay1 (F := Ideal) A A (ix2 r c) = _
  unfold k0_pay1
  exact (congrFun (shapeCast_self _ _) (ix2 r c)).trans (colDiv_apply A A r c)

/-- After the three rounds the scratch buffer holds the transport plan of the block. -/
theorem plan6_mat (x0 : Vec Ideal S1x1024x512 .f32) : mat (plan6 x0) = transport (blk x0) := by
  unfold plan6 plan5 plan4 plan3 plan2 plan1
  rw [pay1_mat, pay10_mat, pay9_mat, pay8_mat, pay7_eq, pay6_mat, pay5_mat, plan0_mat]
  rfl

/-- The output block: the row-stochastic plan applied to the block's rows. -/
theorem blockOut_apply (x0 : Vec Ideal S1x1024x512 .f32) (u : Fin 1) (r : Fin 1024) (k : Fin 512) :
    blockOut (F := Ideal) x0 (ix3 u r k) = attend (blk x0) r k := by
  show k0_pay2 (F := Ideal) (k0_pay3 x0) (plan6 x0) (plan6 x0) (ix3 u r k) = _
  unfold k0_pay2
  refine (shapeCast_ab_1ab_apply _ _ u r k).trans ?_
  refine (apply_apply _ _ r k).trans ?_
  refine Finset.sum_congr rfl fun j _ => ?_
  refine congrArg₂ (· * ·) ((rowDiv_apply (plan6 x0) (plan6 x0) r j).trans ?_) (pay3_apply x0 j k)
  exact congrFun (congrFun (congrArg rowNormalize (plan6_mat x0)) r) j

end Cert.KernelIdeal.Value

end
-- ==== Proof.KernelArray.lean ====
/-
  From grid points to the whole result.

  Point `t` of the 64-point grid reads block `(t, 0, 0)` of the reshaped argument — group `t`, whole —
  and writes block `(t, 0, 0)` of the [64, 1024, 512] result.  What it writes is `groups` of the
  reshaped argument restricted to that block, and the 64 blocks cover the result; so after the grid
  the result array is `groups` of the reshaped argument, and the reshape after the grid turns it
  into the [65536, 512] result of the program.
-/
import proofs.«154877_j57423712747928_1_alg».proof.Proof.KernelBody
import proofs.«154877_j57423712747928_1_alg».proof.Proof.KernelValue
import proofs.«154877_j57423712747928_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Body Cert.KernelIdeal.Value Cert.GroupAttn

variable (m : (ℓ : Loc nD τ sig) → Buf (Elt Ideal) ℓ) (ρ : Dev nD → PrngReg)

/-- Both windows sit at block `(t, 0, 0)` at point `t`. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The group a grid point works on. -/
def grp (t : Fin cfg0.N) : Fin 64 := ⟨t.val, Nat.lt_of_lt_of_eq t.isLt N_0⟩

/-- The input block at point `t` is group `t` of the array the region finds. -/
theorem iblk_apply (c : Dev nD) (t : Fin cfg0.N) (u : Fin 1) (r : Fin 1024) (k : Fin 512) :
    iblk m c 0 t (ix3 u r k) = V m c main_v0 (ix3 (grp t) r k) := by
  obtain ⟨e0, e1, e2, -⟩ := idx_facts t
  show V m c main_v0 (((cfg0.win 0).blk t).view.emb (ix3 u r k)) = V m c main_v0 _
  refine congrArg (V m c main_v0) (funext fun a => Fin.ext ?_)
  match a with
  | ⟨0, _⟩ => show win0_0.index t (0 : Fin 3) * 1 + 1 * u.val = t.val; have := u.isLt; omega
  | ⟨1, _⟩ => show win0_0.index t (1 : Fin 3) * 1024 + 1 * r.val = r.val; omega
  | ⟨2, _⟩ => show win0_0.index t (2 : Fin 3) * 512 + 1 * k.val = k.val; omega

/-- One entry of one point's output: the group's attention at that row and feature. -/
theorem point_eq (X : (⟨3, ![64, 1024, 512]⟩ : Shape).Idx → EReal) (x0 : Vec Ideal S1x1024x512 .f32) (g : Fin 64)
    (hx : ∀ (u : Fin 1) (r : Fin 1024) (k : Fin 512), x0 (ix3 u r k) = X (ix3 g r k))
    (y : S1x1024x512.Idx) (i : (⟨3, ![64, 1024, 512]⟩ : Shape).Idx)
    (h0 : (i 0).val = g.val) (h1 : (i 1).val = (y 1).val) (h2 : (i 2).val = (y 2).val) :
    blockOut (F := Ideal) x0 y = groups X i := by
  obtain ⟨u, r, k, rfl⟩ : ∃ (u : Fin 1) (r : Fin 1024) (k : Fin 512), y = ix3 u r k := ⟨y 0, y 1, y 2, eq_ix3 y⟩
  obtain rfl : i = ix3 g r k := funext fun a => Fin.ext (by
    match a with | ⟨0, _⟩ => exact h0 | ⟨1, _⟩ => exact h1 | ⟨2, _⟩ => exact h2)
  rw [blockOut_apply, groups_ix3]
  exact congrArg (fun x => attend x r k) (funext fun r => funext fun k => hx 0 r k)

/-- What point `t` writes back is block `t` of `groups` of the array the region finds. -/
theorem flushed_eq (c : Dev nD) (t : Fin cfg0.N) :
    (dats m 0 c).flushed 1 t = ((cfg0.win 1).blk t).view.read (Elt Ideal) (groups (V m c main_v0)) := by
  show (cfg0.win 1).cut (grid0.coords t) ((dats m 0 c).after 1 t) = _
  rw [after0_1]
  unfold outsAt0
  rw [out_eq]
  obtain ⟨-, -, -, e0, e1, e2⟩ := idx_facts t
  funext j
  refine point_eq (V m c main_v0) (iblk m c 0 t) (grp t) (iblk_apply m c t) j _ ?_ ?_ ?_
  · show win0_1.index t (0 : Fin 3) * 1 + 1 * (j 0).val = t.val
    have : (j 0).val < 1 := (j 0).isLt
    omega
  · show win0_1.index t (1 : Fin 3) * 1024 + 1 * (j 1).val = (j 1).val; omega
  · show win0_1.index t (2 : Fin 3) * 512 + 1 * (j 2).val = (j 2).val; omega

/-- An index of the result is in point `t`'s block iff each coordinate is in the block's range. -/
theorem mem_blk (t : Fin cfg0.N) (i : S64x1024x512.Idx) :
    i ∈ ((cfg0.win 1).blk t).view.set ↔ ∀ a : Fin 3, win0_1.index t a * S1x1024x512.size a ≤ (i a).val
      ∧ (i a).val < win0_1.index t a * S1x1024x512.size a + S1x1024x512.size a := by
  show i ∈ ((View.whole main_v1).slice (win0_1.rect t)).set ↔ _
  rw [View.set_slice_whole, Rect.mem_set_unit]
  exact Iff.rfl

/-- Every index of the result is in the block of the point named by its group. -/
theorem cover (i : S64x1024x512.Idx) : ∃ t : Fin cfg0.N, (cfg0.win 1).flush t = true ∧ i ∈ ((cfg0.win 1).blk t).view.set := by
  have h0 : (i 0).val < 64 := (i 0).isLt
  have h1 : (i 1).val < 1024 := (i 1).isLt
  have h2 : (i 2).val < 512 := (i 2).isLt
  have hN : cfg0.N = 64 := N_0
  refine ⟨⟨(i 0).val, by rw [hN]; exact h0⟩, flush0_1 _, ?_⟩
  rw [mem_blk]
  obtain ⟨-, -, -, e0, e1, e2⟩ := idx_facts ⟨(i 0).val, by rw [hN]; exact h0⟩
  intro a
  match a with
  | ⟨0, _⟩ =>
    show win0_1.index _ (0 : Fin 3) * 1 ≤ (i 0).val ∧ (i 0).val < win0_1.index _ (0 : Fin 3) * 1 + 1
    rw [e0]; show (i 0).val * 1 ≤ (i 0).val ∧ (i 0).val < (i 0).val * 1 + 1; omega
  | ⟨1, _⟩ =>
    show win0_1.index _ (1 : Fin 3) * 1024 ≤ (i 1).val ∧ (i 1).val < win0_1.index _ (1 : Fin 3) * 1024 + 1024
    rw [e1]; omega
  | ⟨2, _⟩ =>
    show win0_1.index _ (2 : Fin 3) * 512 ≤ (i 2).val ∧ (i 2).val < win0_1.index _ (2 : Fin 3) * 512 + 512
    rw [e2]; omega

/-- The result array after the grid. -/
theorem final (c : Dev nD) : (dats m 0 c).arrAt 1 cfg0.N = groups (V m c main_v0) :=
  (dats m 0 c).arrAt_eq_of_cover 1 (groups (V m c main_v0)) (fun t _ => flushed_eq m c t) cover

end Cert.KernelIdeal.Arr

end
-- ==== Proof.KernelRun.lean ====
/-
  The kernel program's run, read: the result is the argument reshaped to 64 groups, every group
  attended to, reshaped back; the arguments are unchanged.
-/
import proofs.«154877_j57423712747928_1_alg».proof.Proof.KernelArray
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.GroupAttn

variable (m : (ℓ : Loc nD τ sig) → Buf (Elt Ideal) ℓ) (ρ : Dev nD → PrngReg)

/-- The array the grid reads is the argument reshaped to [64, 1024, 512]. -/
theorem V_main_v0 (c : Dev nD) :
    V m c main_v0 = shapeCast S64x1024x512 (m ((c : Thread nD τ).loc main_arg0)) shapeCasts_S65536x512_S64x1024x512 := by
  show StableHlo.after hostOps0 (fun b => m (c, b)) (Proc.devRef .tc main_v0) = _
  after_results
  rfl

/-- The program's result: the grid's result array reshaped to [65536, 512]. -/
theorem tail_eq (c : Dev nD) :
    Pipeline.afterTail₀ cfgs (dats m) 0 (V0 m) [hostOps1] c main_v2
      = shapeCast S65536x512 (groups (V m c main_v0)) shapeCasts_S64x1024x512_S65536x512 := by
  unfold Pipeline.afterTail₀
  show StableHlo.after hostOps1 _ (Proc.devRef .tc main_v2) = _
  after_results
  exact congrArg (fun X => shapeCast S65536x512 X shapeCasts_S64x1024x512_S65536x512)
    ((Pipeline.withArrays_arr spec0 launch0.win.arr_inj c _ _ 1).trans (final m c))

/-- Every weakly fair execution ends with the result at `groups` of the reshaped argument, reshaped back,
    and the arguments as they were. -/
theorem run : θ_run defs (onTc (τ := τ) (main (F := Ideal))) ⟨m, fun _ => 0, ρ⟩ fun r => ∀ c : Dev nD,
      r.2.mem ((c.tc : Thread nD τ).loc main_v2)
        = shapeCast S65536x512 (groups (shapeCast S64x1024x512 (m ((c.tc : Thread nD τ).loc main_arg0)) shapeCasts_S65536x512_S64x1024x512))
            shapeCasts_S64x1024x512_S65536x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v2 (Pipeline.mem_restRefs_of main_v2 (by decide) (by decide))).trans (tail_eq m c)).trans
        (by rw [V_main_v0]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arr

end
-- ==== Proof.lean ====
/-
  The claim: a fused grouped-attention kernel against its batched reference.

  Both programs reshape a [65536, 512] array into 64 groups of 1024 rows, and for each group
  normalise the rows to unit length (the length bounded below by the word of 1e-12), take all
  pairwise cosine similarities `s`, form the Gibbs kernel `exp ((s - 1) / T)` at the temperature
  `T` = the f32 word of 0.05, run three rounds of row-then-column normalisation, normalise the rows
  once more, and multiply the resulting row-stochastic plan into the group's rows.

  On the extended reals the two differ only in arrangement:
    * the kernel works one group per grid point, keeping the 1024 × 1024 plan in a scratch buffer that
      it rewrites in place; the reference carries a batch axis through every operation;
    * the kernel multiplies `s - 1` by its folded constant `1 / T` (named exactly `2^28 / 13421773`),
      the reference divides `-(1 - s)` by `T`: equal on every extended real since `1` and `T` are
      finite and `T ≠ 0`;
    * the kernel rounds the unit rows, the plan and the group to bf16 before its two matrix
      products, which changes nothing here; its lane sums have no initial value where the reference's
      sums start from the word of `0`.
  Every other step is the same operation index by index, so no finiteness of the inputs is used.

  `Spec.lean` states the common function `groups`; `RefValue.lean` reads the reference's stages as it;
  `KernelBody.lean`, `KernelValue.lean`, `KernelArray.lean` and `KernelRun.lean` read one grid point,
  its arithmetic, the whole grid and the program's run as it.
-/
import proofs.«154877_j57423712747928_1_alg».proof.Defs
import proofs.«154877_j57423712747928_1_alg».proof.Proof.Gen.Kernel
import proofs.«154877_j57423712747928_1_alg».proof.Proof.Gen.Kernel.Skeleton
import proofs.«154877_j57423712747928_1_alg».proof.Proof.Gen.Kernel.Launch
import proofs.«154877_j57423712747928_1_alg».proof.Proof.Gen.Kernel.Points
import proofs.«154877_j57423712747928_1_alg».proof.Proof.Gen.Kernel.Frame
import proofs.«154877_j57423712747928_1_alg».proof.Proof.Gen.KernelIdeal
import proofs.«154877_j57423712747928_1_alg».proof.Proof.Gen.KernelIdeal.Skeleton
import proofs.«154877_j57423712747928_1_alg».proof.Proof.Gen.KernelIdeal.Launch
import proofs.«154877_j57423712747928_1_alg».proof.Proof.Gen.KernelIdeal.Points
import proofs.«154877_j57423712747928_1_alg».proof.Proof.Gen.KernelIdeal.Frame
import proofs.«154877_j57423712747928_1_alg».proof.Proof.Gen.ReferenceIdeal
import proofs.«154877_j57423712747928_1_alg».proof.Proof.Gen.Pre_finite_inputs
import proofs.«154877_j57423712747928_1_alg».proof.Proof.Gen.ReferenceIdeal.Run
import proofs.«154877_j57423712747928_1_alg».proof.Proof.Gen.ReferenceIdeal.Read
import proofs.«154877_j57423712747928_1_alg».proof.Proof.Spec
import proofs.«154877_j57423712747928_1_alg».proof.Proof.RefValue
import proofs.«154877_j57423712747928_1_alg».proof.Proof.KernelRun
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: it runs, and writes no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewritten constant: the kernel's `20.0` stands for the reciprocal of the reference's temperature word,
    `2^28 / 13421773`, and is printed as that value on the extended reals. -/
theorem preserves : Cert.preserves_Kernel_KernelIdeal :=
  IdealRules.named_const.statement Cert.KernelIdeal.κ "inv_eps" .f32 0x41A00000#32 ((268435456 / 13421773 : ℝ) : EReal) rfl

/-- From arguments that agree, both programs end at `groups` of the reshaped first argument, reshaped back. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.result_eq, (hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
